-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S400000x2 : Shape := ⟨2, ![400000, 2]⟩
abbrev S400000 : Shape := ⟨1, ![400000]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S400000 : S_.BroadcastsInDim S400000 (![] : Fin 0 → Fin S400000.rank)
  reducesTo_S400000_S_d0 : S400000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8192 .f32) (main_arg1 : IVec S400000x2 32) (main_arg2 : FVec F S400000 .f32) (main_arg3 : FVec F S4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x8192 : Shape := ⟨2, ![4096, 8192]⟩
abbrev S400000x2 : Shape := ⟨2, ![400000, 2]⟩
abbrev S400000 : Shape := ⟨1, ![400000]⟩
abbrev S4096 : Shape := ⟨1, ![4096]⟩
abbrev S_ : Shape := ⟨0, ![]⟩
abbrev S8192x4096 : Shape := ⟨2, ![8192, 4096]⟩
abbrev S400000x1 : Shape := ⟨2, ![400000, 1]⟩
abbrev S1x4096 : Shape := ⟨2, ![1, 4096]⟩
abbrev S4096x4096 : Shape := ⟨2, ![4096, 4096]⟩
abbrev S1024x1024 : Shape := ⟨2, ![1024, 1024]⟩
abbrev S1x1024 : Shape := ⟨2, ![1, 1024]⟩

abbrev nBuf : Space → Nat
  | .hbm => 32
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S400000x2, .i32⟩
  | .hbm, ⟨2, _⟩ => ⟨S400000, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S400000x1, .i32⟩
  | .hbm, ⟨7, _⟩ => ⟨S400000, .i32⟩
  | .hbm, ⟨8, _⟩ => ⟨S400000x1, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x1, .i32⟩
  | .hbm, ⟨26, _⟩ => ⟨S400000x2, .i32⟩
  | .hbm, ⟨27, _⟩ => ⟨S8192x4096, .f32⟩
  | .hbm, ⟨28, _⟩ => ⟨S8192x4096, .bf16⟩
  | .hbm, ⟨29, _⟩ => ⟨S4096x8192, .bf16⟩
  | .hbm, ⟨30, _⟩ => ⟨S1x4096, .f32⟩
  | .hbm, ⟨31, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8192x4096 : S_.BroadcastsInDim S8192x4096 (![] : Fin 0 → Fin S8192x4096.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S8192x4096_S400000x2_S400000_n_01_01_1_wf : ScatterDims.WF S8192x4096 S400000x2 S400000 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .bf16 = 32 ∨ (Rect.block (s := S4096x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .bf16 = 32 ∨ (Rect.block (s := S8192x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S8192x4096_S400000x2_S400000_n_01_01_1 : ScatterDims S8192x4096 S400000x2 S400000 where
  updateWindowDims := []
  insertedWindowDims := [0, 1]
  scatterDimsToOperandDims := [0, 1]
  indexVectorDim := 1
  wf := scatter_S8192x4096_S400000x2_S400000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v20) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S400000x2 : Shape := ⟨2, ![400000, 2]⟩
abbrev S400000 : Shape := ⟨1, ![400000]⟩
abbrev S4096 : Shape := ⟨1, ![4096]⟩
abbrev S_ : Shape := ⟨0, ![]⟩
abbrev S8192x4096 : Shape := ⟨2, ![8192, 4096]⟩
abbrev S400000x1 : Shape := ⟨2, ![400000, 1]⟩
abbrev S4096x4096 : Shape := ⟨2, ![4096, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S400000x2, .i32⟩
  | .hbm, ⟨2, _⟩ => ⟨S400000, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S400000x1, .i32⟩
  | .hbm, ⟨7, _⟩ => ⟨S400000, .i32⟩
  | .hbm, ⟨8, _⟩ => ⟨S400000x1, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x1, .i32⟩
  | .hbm, ⟨26, _⟩ => ⟨S400000x2, .i32⟩
  | .hbm, ⟨27, _⟩ => ⟨S8192x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S8192x4096_S400000x2_S400000_n_01_01_1_wf : ScatterDims.WF S8192x4096 S400000x2 S400000 [] [0, 1] [0, 1] 1
  dot_S4096x8192_S8192x4096_S4096x4096_1_0_0_1_n_n_wf : DotDims.WF S4096x8192 S8192x4096 S4096x4096 [1] [0] [0] [1] [] []

variable [Facts₀]

def scatter_S8192x4096_S400000x2_S400000_n_01_01_1 : ScatterDims S8192x4096 S400000x2 S400000 where
  updateWindowDims := []
  insertedWindowDims := [0, 1]
  scatterDimsToOperandDims := [0, 1]
  indexVectorDim := 1
  wf := scatter_S8192x4096_S400000x2_S400000_n_01_01_1_wf
def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf

class Facts : Prop extends Facts₀ where

variable [Facts]
-- ==== Proof.Spec.lean ====
/-
  The function both programs compute, and the one law that joins their two arrangements.

  A dense layer: for an activation matrix X [4096, 8192], a weight matrix W [8192, 4096] and a bias vector [4096],
  the entry (a, b) of the result is  tanh (Σ_r X[a, r] · W[r, b] + bias[b])  on the extended reals.
  One program forms the inner sum in one piece; the other splits the 8192 terms into 8 consecutive runs of 1024
  and adds the runs' sums one after the other, starting from zero.  Addition of extended reals is commutative and
  associative, so the two groupings are the same sum (no finiteness is needed: nothing is cancelled or distributed).
-/
import Idealize.ShloMosaic.PureOps.Ideal
import Idealize.ShloMosaic.Lib.ValueIdx
import Mathlib.Algebra.BigOperators.Fin
import Mathlib.Algebra.BigOperators.Intervals

noncomputable section

open scoped BigOperators

namespace Cert.Dense

open Idealize.ShloMosaic Idealize.ShloMosaic.ValueIdx

/-- Entry (a, b) of the dense layer: the hyperbolic tangent of row a of X against column b of W, plus the bias at b. -/
def G (X : (⟨2, ![4096, 8192]⟩ : Shape).Idx → EReal) (W : (⟨2, ![8192, 4096]⟩ : Shape).Idx → EReal)
    (bias : (⟨1, ![4096]⟩ : Shape).Idx → EReal) : (⟨2, ![4096, 4096]⟩ : Shape).Idx → EReal :=
  fun i => Ideal.tanh ((∑ r : Fin 8192, X (ix2 (i 0) r) * W (ix2 r (i 1))) + bias (ix1 (i 1)))

/-- A sum of 8192 terms is the sum, over 8 consecutive runs, of each run's 1024 terms (in any commutative monoid). -/
theorem sum_runs {M : Type*} [AddCommMonoid M] (f : Fin 8192 → M) :
    ∑ r : Fin 8192, f r
      = ∑ s ∈ Finset.range 8, ∑ r' : Fin 1024,
          (if h : s < 8 then f ⟨1024 * s + r'.val, by have := r'.isLt; omega⟩ else 0) := by
  rw [← Fin.sum_univ_eq_sum_range (fun s => ∑ r' : Fin 1024,
          (if h : s < 8 then f ⟨1024 * s + r'.val, by have := r'.isLt; omega⟩ else 0)) 8]
  rw [← Equiv.sum_comp (finProdFinEquiv (m := 8) (n := 1024)) f, Fintype.sum_prod_type]
  refine Finset.sum_congr rfl fun s _ => Finset.sum_congr rfl fun r' _ => ?_
  rw [dif_pos s.isLt]
  congr 1
  apply Fin.ext
  show r'.val + 1024 * s.val = 1024 * s.val + r'.val
  omega

/-- The dense layer's entry with its inner sum grouped into the 8 runs of 1024 terms, added from zero. -/
theorem G_apply_runs (X : (⟨2, ![4096, 8192]⟩ : Shape).Idx → EReal) (W : (⟨2, ![8192, 4096]⟩ : Shape).Idx → EReal)
    (bias : (⟨1, ![4096]⟩ : Shape).Idx → EReal) (a b : Fin 4096) :
    G X W bias (ix2 a b)
      = Ideal.tanh ((0 + ∑ s ∈ Finset.range 8, ∑ r' : Fin 1024,
            (if h : s < 8 then X (ix2 a (⟨1024 * s + r'.val, by have := r'.isLt; omega⟩ : Fin 8192))
                * W (ix2 (⟨1024 * s + r'.val, by have := r'.isLt; omega⟩ : Fin 8192) b) else 0))
          + bias (ix1 b)) := by
  show Ideal.tanh ((∑ r : Fin 8192, X (ix2 a r) * W (ix2 r b)) + bias (ix1 b)) = _
  rw [sum_runs (fun r : Fin 8192 => X (ix2 a r) * W (ix2 r b)), zero_add]

end Cert.Dense

end
-- ==== Proof.RefValue.lean ====
/-
  The reference program's result is the dense layer of its arguments.

  The reference forms the weight matrix W from the index pairs and the values (left as one opaque stage here: both
  programs build it by the same operations), takes the whole product X · W as one sum over the 8192 shared
  coordinates, adds the bias row to every row, and applies the hyperbolic tangent.  Read at an entry (a, b) that is
  tanh (Σ_r X[a, r] · W[r, b] + bias[b]).
-/
import proofs.«171216_j15504831938689_2_alg».proof.Proof.Gen.ReferenceIdeal.Read
import proofs.«171216_j15504831938689_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's last stage, as a function of the argument arrays, is the dense layer of the activations, the
    weight matrix its earlier stages build, and the bias. -/
theorem result_eq (x0 : (⟨S4096x8192, .f32⟩ : BufTy).Contents (Elt Ideal)) (x1 : (⟨S400000x2, .i32⟩ : BufTy).Contents (Elt Ideal))
    (x2 : (⟨S400000, .f32⟩ : BufTy).Contents (Elt Ideal)) (x3 : (⟨S4096, .f32⟩ : BufTy).Contents (Elt Ideal)) :
    val_main_v23 (F := Ideal) x0 x1 x2 x3 = Cert.Dense.G x0 (val_main_v18 (F := Ideal) x1 x2) x3 := by
  funext i
  have el : ∀ k : Fin 8192, lidx_main_v19 i k = ix2 (i 0) k := fun k => funext fun a => by
    match a with | ⟨0, _⟩ => rfl | ⟨1, _⟩ => rfl
  have er : ∀ k : Fin 8192, ridx_main_v19 i k = ix2 k (i 1) := fun k => funext fun a => by
    match a with | ⟨0, _⟩ => rfl | ⟨1, _⟩ => rfl
  have eb : idx_main_v20 (idx_main_v21 i) = ix1 (i 1) := funext fun a => by
    match a with | ⟨0, _⟩ => rfl
  rw [val_main_v23_apply, val_main_v22_apply, val_main_v19_apply, val_main_v21_apply, val_main_v20_apply]
  unfold Cert.Dense.G
  simp only [el, er, eb, Ideal.hostUnary_tanh_def, Ideal.addf_def]
  rfl

end Cert.ReferenceIdeal.RefValue

end
-- ==== Proof.Pieces.lean ====
/-
  What one run of the body leaves behind, as a term of what it loaded.

  The body works on a 1024 x 1024 running sum kept between steps.  At the first step of a run it overwrites the sum
  with zeros and then adds the step's block product; at a later step it adds the block product to what the step before
  left; at the last step it also writes out the finished block.  Each statement below says that the contents a step
  leaves (in the running sum, or in the output block) are the body's own arithmetic applied to the blocks it loaded.
-/
import proofs.«171216_j15504831938689_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset pair (0, 0) is the constant-zero offset. -/
private theorem offsets_zero : (![0, 0] : Fin 2 → Nat) = fun _ => 0 := funext fun a => by fin_cases a <;> rfl

/-- The first step of a run: zeros, then the step's block product added. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  -- The two whole-block stores cover the running sum, so what is left is the later one's value; the reload between
  -- them sees the zeros just stored, and the two input loads see the input blocks.
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  try sl_unfold_words
  rw [View.canon_cons_unit_zero offsets_zero, View.readCov_unit_zero (S := S1024x1024) _ offsets_zero]
  simp only [View.readAt_eq_ld, harg3.read_unread, harg4.read_unread, View.ld_unit_zero (S := S1024x1024) offsets_zero]

/-- A middle step: the step's block product added to what the step before left. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  -- One whole-block store covers the running sum; its value is computed from the whole-block loads of the sum
  -- as the step before left it and of the two input blocks.
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  try sl_unfold_words
  rw [View.canon_unit_zero offsets_zero]
  simp only [View.readAt_eq_ld, harg3.read_unread, harg4.read_unread, harg7.read_unread,
    View.ld_unit_zero (S := S1024x1024) offsets_zero]

/-- The last step, the running sum: the same addition. -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  -- As at a middle step: one whole-block store, over whole-block loads of the earlier sum and the input blocks.
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  try sl_unfold_words
  rw [View.canon_unit_zero offsets_zero]
  simp only [View.readAt_eq_ld, harg3.read_unread, harg4.read_unread, harg7.read_unread,
    View.ld_unit_zero (S := S1024x1024) offsets_zero]

/-- The last step, the output block: the finishing arithmetic applied to the completed running sum and the bias row. -/
theorem output_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  -- One whole-block store covers the output block; the running sum it is computed from is reloaded after the
  -- step's own store into it, so it is that store's value; the bias row is loaded whole.
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  try sl_unfold_words
  rw [View.canon_unit_zero offsets_zero, View.readCov_unit_zero (S := S1024x1024) _ offsets_zero]
  simp only [View.readAt_eq_ld, harg3.read_unread, harg4.read_unread, harg5.read_unread, harg7.read_unread,
    View.ld_unit_zero (S := S1024x1024) offsets_zero, View.ld_unit_zero (S := S1x1024) offsets_zero]

end Cert.KernelIdeal.Pieces

end
-- ==== Proof.Payload.lean ====
/-
  The body's three stored values, read at one entry, on the extended reals.

  The body keeps a 1024 x 1024 running sum.  It stores zeros into it (first step of a run), then adds to it the
  product of a 1024 x 1024 block of activations with a 1024 x 1024 block of weights (every step), and at the last
  step of a run writes out the hyperbolic tangent of the running sum plus one row of biases.  Entry (p, q) of each:
    zeros:        0
    accumulate:   old (p, q) + Σ_r a (p, r) · w (r, q)
    finish:       tanh (sum (p, q) + bias (0, q))
-/
import proofs.«171216_j15504831938689_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The block of zeros the first step of a run stores: every entry is the extended real 0. -/
theorem zeros_apply (i : S1024x1024.Idx) : k0_pay1 (F := Ideal) i = 0 := by
  unfold k0_pay1
  simp only [shapeCast_self]
  show Ideal.ofBits .f32 0x00000000#32 = 0
  exact Ideal.ofBits_zero_f32

/-- Row coordinate of the left factor in the block product: the output's row. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- Column coordinate of the left factor: the summation index. -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- Row coordinate of the right factor: the summation index. -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- Column coordinate of the right factor: the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product from a zero accumulator, at entry (p, q): the sum over r of a (p, r) · w (r, q). -/
theorem block_product_apply (a w : FVec Ideal S1024x1024 .bf16) (p q : Fin 1024) :
    matmul (φ₁ := .bf16) (φ₂ := .bf16) dot_S1024x1024_S1024x1024_S1024x1024_1_0_0_1_n_n none a w (constant (F := Ideal) S1024x1024 .f32 0x00000000#32) (ix2 p q)
      = ∑ r : Fin 1024, a (ix2 p r) * w (ix2 r q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rhs_row _ _).trans hk
    | ⟨1, _⟩ => exact rhs_col _ _)
  rw [el, er]

/-- One accumulating step at entry (p, q): what the running sum held there plus the block product's entry. -/
theorem accumulate_apply (old : Vec Ideal S1024x1024 .f32) (a w : Vec Ideal S1024x1024 .bf16) (p q : Fin 1024) :
    k0_pay2 (F := Ideal) old a w (ix2 p q) = old (ix2 p q) + ∑ r : Fin 1024, a (ix2 p r) * w (ix2 r q) := by
  unfold k0_pay2
  simp only [shapeCast_self]
  rw [addf_apply]
  exact congrArg (old (ix2 p q) + ·) (block_product_apply a w p q)

/-- The finishing step at entry (p, q): the hyperbolic tangent of the running sum plus the bias of column q. -/
theorem finish_apply (sum : Vec Ideal S1024x1024 .f32) (bias : Vec Ideal S1x1024 .f32) (p q : Fin 1024) :
    k0_pay3 (F := Ideal) sum bias (ix2 p q) = Ideal.tanh (sum (ix2 p q) + bias (ix2 (0 : Fin 1) q)) := by
  unfold k0_pay3
  simp only [shapeCast_self]
  show Ideal.tanh (sum (ix2 p q) + broadcastTo S1024x1024 bias broadcasts_S1x1024_S1024x1024 (ix2 p q)) = _
  rw [broadcastTo_1b_ab_apply]

end Cert.KernelIdeal.Body

end
-- ==== Proof.Accumulate.lean ====
/-
  The running sum after any step of the region.

  The region's 128 steps fall into 16 runs of 8 consecutive steps; run number t / 8 works on one 1024 x 1024 block
  of the result.  Within a run the running sum starts from zeros at the first step and every step adds the product
  of its activation block with its weight block.  So after step t the running sum's entry (p, q) is
      0 + Σ_{s ≤ t % 8}  Σ_r a_s (p, r) · w_s (r, q),
  where a_s, w_s are the blocks of step 8·(t / 8) + s.  This is the generated fold of the carried running sum, read
  at an entry: each step's arithmetic is an addition, and a fold of additions is a sum over the steps.
-/
import proofs.«171216_j15504831938689_2_alg».proof.Proof.Gen.KernelIdeal.Value
import proofs.«171216_j15504831938689_2_alg».proof.Proof.Pieces
import proofs.«171216_j15504831938689_2_alg».proof.Proof.Payload

noncomputable section

open scoped BigOperators
open Idealize.ShloMosaic Idealize.ShloMosaic.TcCoe Idealize.SL.Sem

namespace Cert.KernelIdeal.Acc

open Cert.KernelIdeal Cert.KernelIdeal.Gen Cert.KernelIdeal.Value Idealize.ShloMosaic.ValueIdx

/-- Entry i = (p, q) of the product of a 1024 x 1024 block a with a 1024 x 1024 block w: Σ_r a (p, r) · w (r, q). -/
def blockDot (a w : Vec Ideal S1024x1024 .bf16) (i : S1024x1024.Idx) : EReal :=
  ∑ r : Fin 1024, a (ix2 (i 0) r) * w (ix2 r (i 1))

/-- One accumulating step at any entry: what was there plus the block product's entry. -/
theorem accumulate_entry (old : Vec Ideal S1024x1024 .f32) (a w : Vec Ideal S1024x1024 .bf16) (i : S1024x1024.Idx) :
    k0_pay2 (F := Ideal) old a w i = old i + blockDot a w i := by
  obtain ⟨p, q, rfl⟩ : ∃ (p q : Fin 1024), i = ix2 p q := ⟨i 0, i 1, eq_ix2 i⟩
  exact Body.accumulate_apply old a w p q

variable (m : (ℓ : Loc nD τ sig) → Buf (Elt Ideal) ℓ)

/-- What step n adds to the running sum at an entry: its activation block times its weight block there;
    nothing for a number past the last step. -/
def term (c : Dev nD) (n : ℕ) (i : S1024x1024.Idx) : EReal :=
  if hb : n < cfg0.N then blockDot (iblk m c 0 (⟨n, hb⟩ : Fin cfg0.N)) (iblk m c 1 (⟨n, hb⟩ : Fin cfg0.N)) i else 0

theorem term_of_lt (c : Dev nD) (n : ℕ) (hb : n < cfg0.N) (i : S1024x1024.Idx) :
    term m c n i = blockDot (iblk m c 0 (⟨n, hb⟩ : Fin cfg0.N)) (iblk m c 1 (⟨n, hb⟩ : Fin cfg0.N)) i := by
  unfold term
  rw [dif_pos hb]

/-- The first step of a run leaves zero plus its own term, whatever the running sum held before. -/
theorem first_step_apply (c : Dev nD) (n : ℕ) (hb : n < cfg0.N) (h0 : n % 8 = 0) (acc : Vec Ideal S1024x1024 .f32)
    (i : S1024x1024.Idx) : scAt0_0 m c n hb acc i = 0 + term m c n i := by
  have h1 : ¬n % 8 = 7 := by omega
  unfold scAt0_0
  rw [dif_pos h0, dif_neg h1]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))) i).trans ?_
  refine (accumulate_entry (k0_pay1 (F := Ideal)) (iblk m c 0 (⟨n, hb⟩ : Fin cfg0.N)) (iblk m c 1 (⟨n, hb⟩ : Fin cfg0.N)) i).trans ?_
  rw [Body.zeros_apply, term_of_lt m c n hb i]

/-- Any later step of a run adds its own term to what the step before left. -/
theorem later_step_apply (c : Dev nD) (n : ℕ) (hb : n < cfg0.N) (h0 : ¬n % 8 = 0) (acc : Vec Ideal S1024x1024 .f32)
    (i : S1024x1024.Idx) : scAt0_0 m c n hb acc i = acc i + term m c n i := by
  rw [term_of_lt m c n hb i]
  unfold scAt0_0
  rw [dif_neg h0]
  by_cases h1 : n % 8 = 7
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) i).trans ?_
    exact accumulate_entry acc (iblk m c 0 (⟨n, hb⟩ : Fin cfg0.N)) (iblk m c 1 (⟨n, hb⟩ : Fin cfg0.N)) i
  · rw [dif_neg h1]
    refine (congrFun (Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) i).trans ?_
    exact accumulate_entry acc (iblk m c 0 (⟨n, hb⟩ : Fin cfg0.N)) (iblk m c 1 (⟨n, hb⟩ : Fin cfg0.N)) i

/-- THE RUNNING SUM after step t, at an entry: zero plus the terms of the steps of t's run up to t. -/
theorem running_sum_apply (c : Dev nD) (t : Fin cfg0.N) (i : S1024x1024.Idx) :
    (outsAt0 m c t.val t.isLt).2 i
      = 0 + ∑ s ∈ Finset.range (t.val % 8 + 1), term m c (8 * (t.val / 8) + s) i := by
  rw [soutsAt0_0_eq m c t]
  exact Pipeline.accAt_add_apply (fun n h => scAt0_0 m c n h (VS0_0.read (Elt Ideal) VS0_0.junk)) (scAt0_0 m c)
    (fun _ => (0 : EReal)) (term m c) (8 * (t.val / 8)) 7
    (fun h i => first_step_apply m c _ h (by omega) _ i)
    (fun n h acc i hlo hhi => later_step_apply m c n h (by omega) acc i)
    (t.val % 8) (by omega) _ i

end Cert.KernelIdeal.Acc

end
-- ==== Proof.Blocks.lean ====
/-
  The arrays the kernel region starts from, and its input blocks read at an entry.

  Before the region the host operations build three arrays: the activations X (argument 0 with its float format
  narrowed, which changes nothing on the extended reals), the weight matrix W (the scatter-add of the values at the
  index pairs, then narrowed likewise) and the bias as one row [1, 4096].  The region's 128 steps are numbered
  t = 32·i + 8·j + k for a row block i < 4, a column block j < 4 and a step k < 8 of the shared axis.  At step t the
  body is handed the 1024 x 1024 block (i, k) of X, the block (k, j) of W and the block (0, j) of the bias row:
  entry (p, r) of a block is the array's entry at 1024 · (block index) + (p, r).
-/
import proofs.«171216_j15504831938689_2_alg».proof.Proof.Gen.KernelIdeal.Frame.Runs
import proofs.«171216_j15504831938689_2_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

/-- Narrowing the float format does nothing to an array of extended reals. -/
theorem truncf_id {s : Shape} {φ ψ : FTy} (a : s.Idx → EReal) (h : ψ.bits < φ.bits) :
    (truncf (F := Ideal) (φ := φ) ψ a h : s.Idx → EReal) = a := rfl

/-- Window 0's block index at step t is (t / 32, t % 8): decided over the 128 steps. -/
theorem idx0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
/-- Window 1's block index at step t is (t % 8, t / 8 % 4). -/
theorem idx1 : ∀ t : Fin cfg0.N, win0_1.index t (0 : Fin 2) = t.val % 8 ∧ win0_1.index t (1 : Fin 2) = t.val / 8 % 4 :=
  (by decide +kernel : ∀ t : Fin grid0.N, win0_1.index t (0 : Fin 2) = t.val % 8 ∧ win0_1.index t (1 : Fin 2) = t.val / 8 % 4)
/-- Window 2's block index at step t is (0, t / 8 % 4). -/
theorem idx2 : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)

/-- Window 0's block of ANY [4096, 8192] array A at step t: entry (p, r) is A at (1024 · (t / 32) + p, 1024 · (t % 8) + r).
    The block is a restriction of the array, whatever the array holds. -/
theorem blk0_apply (A : S4096x8192.Idx → EReal) (t : Fin cfg0.N) (p r : Fin 1024) :
    (((cfg0.win 0).blk t).view.read (Elt Ideal) A : Vec Ideal S1024x1024 .bf16) (ix2 p r)
      = A (ix2 (⟨1024 * (t.val / 32) + p.val, by have := lt_of_lt_of_eq t.isLt (show cfg0.N = 128 from N_0); have := p.isLt; omega⟩ : Fin 4096)
               (⟨1024 * (t.val % 8) + r.val, by have := r.isLt; omega⟩ : Fin 8192)) := by
  rw [View.read_apply]
  refine congrArg A (funext fun a => Fin.ext ?_)
  match a with
  | ⟨0, _⟩ => show win0_0.index t 0 * 1024 + 1 * p.val = 1024 * (t.val / 32) + p.val; rw [(idx0 t).1]; omega
  | ⟨1, _⟩ => show win0_0.index t 1 * 1024 + 1 * r.val = 1024 * (t.val % 8) + r.val; rw [(idx0 t).2]; omega

/-- Window 1's block of ANY [8192, 4096] array A at step t: entry (r, q) is A at (1024 · (t % 8) + r, 1024 · (t / 8 % 4) + q). -/
theorem blk1_apply (A : S8192x4096.Idx → EReal) (t : Fin cfg0.N) (r q : Fin 1024) :
    (((cfg0.win 1).blk t).view.read (Elt Ideal) A : Vec Ideal S1024x1024 .bf16) (ix2 r q)
      = A (ix2 (⟨1024 * (t.val % 8) + r.val, by have := r.isLt; omega⟩ : Fin 8192)
               (⟨1024 * (t.val / 8 % 4) + q.val, by have := q.isLt; omega⟩ : Fin 4096)) := by
  rw [View.read_apply]
  refine congrArg A (funext fun a => Fin.ext ?_)
  match a with
  | ⟨0, _⟩ => show win0_1.index t 0 * 1024 + 1 * r.val = 1024 * (t.val % 8) + r.val; rw [(idx1 t).1]; omega
  | ⟨1, _⟩ => show win0_1.index t 1 * 1024 + 1 * q.val = 1024 * (t.val / 8 % 4) + q.val; rw [(idx1 t).2]; omega

/-- Window 2's block of ANY [1, 4096] array A at step t: entry (u, q) is A at (0, 1024 · (t / 8 % 4) + q). -/
theorem blk2_apply (A : S1x4096.Idx → EReal) (t : Fin cfg0.N) (u : Fin 1) (q : Fin 1024) :
    (((cfg0.win 2).blk t).view.read (Elt Ideal) A : Vec Ideal S1x1024 .f32) (ix2 u q)
      = A (ix2 (0 : Fin 1) (⟨1024 * (t.val / 8 % 4) + q.val, by have := q.isLt; omega⟩ : Fin 4096)) := by
  rw [View.read_apply]
  refine congrArg A (funext fun a => Fin.ext ?_)
  match a with
  | ⟨0, _⟩ => show win0_2.index t 0 * 1 + 1 * u.val = 0; rw [(idx2 t).1]; omega
  | ⟨1, _⟩ => show win0_2.index t 1 * 1024 + 1 * q.val = 1024 * (t.val / 8 % 4) + q.val; rw [(idx2 t).2]; omega

variable (m : (ℓ : Loc nD τ sig) → Buf (Elt Ideal) ℓ)

/-- The region finds the activations as launched: narrowing the float format is the identity on extended reals. -/
theorem acts_eq (c : Dev nD) :
    (V m c main_v20 : S4096x8192.Idx → EReal) = m ((c : Thread nD τ).loc main_arg0) := by
  have e : (V m c main_v20 : S4096x8192.Idx → EReal)
      = truncf (F := Ideal) .bf16 (m ((c : Thread nD τ).loc main_arg0) : S4096x8192.Idx → EReal) bitsLt_bf16_f32 := by
    dsimp only [Gen.V, Gen.hostOps0]; after_results
  rw [e]; rfl

/-- The region finds the weight matrix the reference's own scatter stage builds from the same index pairs and values
    (the two programs build it by the same operations; narrowing the format afterwards is the identity). -/
theorem weights_eq (c : Dev nD) :
    (V m c main_v19 : S8192x4096.Idx → EReal)
      = Cert.ReferenceIdeal.Read.val_main_v18 (F := Ideal) (m ((c : Thread nD τ).loc main_arg1)) (m ((c : Thread nD τ).loc main_arg2)) := by
  dsimp only [Gen.V, Gen.hostOps0]
  after_results_simp
  rw [truncf_id]
  unfold Cert.ReferenceIdeal.Read.val_main_v18
  rfl

/-- The region finds the bias as one row: entry (0, q) is the bias at q. -/
theorem bias_row_apply (c : Dev nD) (u : Fin 1) (q : Fin 4096) :
    (V m c main_v21 : S1x4096.Idx → EReal) (ix2 u q) = (m ((c : Thread nD τ).loc main_arg3) : S4096.Idx → EReal) (ix1 q) := by
  have e : (V m c main_v21 : S1x4096.Idx → EReal)
      = shapeCast S1x4096 (m ((c : Thread nD τ).loc main_arg3) : S4096.Idx → EReal) shapeCasts_S4096_S1x4096 := by
    dsimp only [Gen.V, Gen.hostOps0]; after_results; rfl
  rw [e]; exact shapeCast_a_1a_apply _ _ u q

/-- Step t's activation block is block (t / 32, t % 8) of X. -/
theorem acts_block_apply (c : Dev nD) (t : Fin cfg0.N) (p r : Fin 1024) :
    (iblk m c 0 t : Vec Ideal S1024x1024 .bf16) (ix2 p r)
      = (V m c main_v20 : S4096x8192.Idx → EReal)
          (ix2 (⟨1024 * (t.val / 32) + p.val, by have := lt_of_lt_of_eq t.isLt (show cfg0.N = 128 from N_0); have := p.isLt; omega⟩ : Fin 4096)
               (⟨1024 * (t.val % 8) + r.val, by have := r.isLt; omega⟩ : Fin 8192)) := by
  unfold iblk
  exact blk0_apply (V m c main_v20 : S4096x8192.Idx → EReal) t p r

/-- Step t's weight block is block (t % 8, t / 8 % 4) of W. -/
theorem weights_block_apply (c : Dev nD) (t : Fin cfg0.N) (r q : Fin 1024) :
    (iblk m c 1 t : Vec Ideal S1024x1024 .bf16) (ix2 r q)
      = (V m c main_v19 : S8192x4096.Idx → EReal)
          (ix2 (⟨1024 * (t.val % 8) + r.val, by have := r.isLt; omega⟩ : Fin 8192)
               (⟨1024 * (t.val / 8 % 4) + q.val, by have := q.isLt; omega⟩ : Fin 4096)) := by
  unfold iblk
  exact blk1_apply (V m c main_v19 : S8192x4096.Idx → EReal) t r q

/-- Step t's bias block is columns 1024 · (t / 8 % 4) … of the bias row. -/
theorem bias_block_apply (c : Dev nD) (t : Fin cfg0.N) (u : Fin 1) (q : Fin 1024) :
    (iblk m c 2 t : Vec Ideal S1x1024 .f32) (ix2 u q)
      = (V m c main_v21 : S1x4096.Idx → EReal)
          (ix2 (0 : Fin 1) (⟨1024 * (t.val / 8 % 4) + q.val, by have := q.isLt; omega⟩ : Fin 4096)) := by
  unfold iblk
  exact blk2_apply (V m c main_v21 : S1x4096.Idx → EReal) t u q

end Cert.KernelIdeal.Blocks

end
-- ==== Proof.OutBlocks.lean ====
/-
  Where the finished blocks land in the result.

  The result [4096, 4096] is cut into a 4 x 4 arrangement of 1024 x 1024 blocks.  Step t = 32·i + 8·j + k of the
  region works on block (i, j) = (t / 32, t / 8 % 4), and writes it back only at the last step of its run of 8
  (k = 7).  Entry (p, q) of block (i, j) is entry (1024·i + p, 1024·j + q) of the result, and every entry of the
  result lies in the block of exactly such a last step: the blocks written back tile the result.
-/
import proofs.«171216_j15504831938689_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem

namespace Cert.KernelIdeal.OutBlocks

open Cert.KernelIdeal Cert.KernelIdeal.Gen Idealize.ShloMosaic.ValueIdx

/-- The result block a step works on: row block t / 32, column block t / 8 % 4. -/
theorem out_index : ∀ t : Fin cfg0.N, win0_3.index t (0 : Fin 2) = t.val / 32 ∧ win0_3.index t (1 : Fin 2) = t.val / 8 % 4 := by
  -- A statement about each of the 128 steps, checked step by step.
  exact (by decide +kernel : ∀ t : Fin grid0.N, win0_3.index t (0 : Fin 2) = t.val / 32 ∧ win0_3.index t (1 : Fin 2) = t.val / 8 % 4)

/-- Entry (p, q) of step t's result block sits at (1024 · (t / 32) + p, 1024 · (t / 8 % 4) + q) in the result. -/
theorem emb_apply (t : Fin cfg0.N) (p q : Fin 1024) :
    (((cfg0.win 3).blk t).view.emb (ix2 p q : S1024x1024.Idx) : S4096x4096.Idx)
      = ix2 (⟨1024 * (t.val / 32) + p.val, by have := lt_of_lt_of_eq t.isLt (show cfg0.N = 128 from N_0); have := p.isLt; omega⟩ : Fin 4096)
            (⟨1024 * (t.val / 8 % 4) + q.val, by have := q.isLt; omega⟩ : Fin 4096) := by
  -- On each axis an entry of a block sits at (block index) · 1024 + (its coordinate inside the block).
  funext a; apply Fin.ext
  match a with
  | ⟨0, _⟩ =>
    show win0_3.index t (0 : Fin 2) * 1024 + 1 * p.val = 1024 * (t.val / 32) + p.val
    rw [(out_index t).1]; omega
  | ⟨1, _⟩ =>
    show win0_3.index t (1 : Fin 2) * 1024 + 1 * q.val = 1024 * (t.val / 8 % 4) + q.val
    rw [(out_index t).2]; omega

/-- Every entry of the result is in the block some step writes back. -/
theorem cover (i : S4096x4096.Idx) :
    ∃ t : Fin cfg0.N, (cfg0.win 3).flush t = true ∧ i ∈ ((cfg0.win 3).blk t).view.set := by
  -- Entry (r, s) lies in block (r / 1024, s / 1024); the last step of that block's run of 8 is
  -- t = 32 · (r / 1024) + 8 · (s / 1024) + 7, which writes back (t % 8 = 7) and works on that block
  -- (t / 32 = r / 1024 and t / 8 % 4 = s / 1024, as r, s < 4096).
  have hi0 : (i 0).val < 4096 := (i 0).isLt
  have hi1 : (i 1).val < 4096 := (i 1).isLt
  have hN : cfg0.N = 128 := N_0
  let t : Fin cfg0.N := ⟨32 * ((i 0).val / 1024) + 8 * ((i 1).val / 1024) + 7, by omega⟩
  have ht : t.val = 32 * ((i 0).val / 1024) + 8 * ((i 1).val / 1024) + 7 := rfl
  refine ⟨t, (flush0_3 t).mpr (by omega), ?_⟩
  show i ∈ ((View.whole main_v22).slice (win0_3.rect t)).set
  rw [View.set_slice_whole, Rect.mem_set_unit]
  obtain ⟨e0, e1⟩ := out_index t
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

end Cert.KernelIdeal.OutBlocks

end
-- ==== Proof.Result.lean ====
/-
  The kernel program's result is the dense layer of its arguments.

  At the last step t of a run (t % 8 = 7) the body writes out tanh (running sum + bias row), and the running sum
  is by then zero plus the eight block products of the run.  The eight activation blocks of a run are the eight
  consecutive 1024-column pieces of the block row i = t / 32 of X, and the eight weight blocks the matching
  1024-row pieces of the block column j = t / 8 % 4 of W; so entry (p, q) of the block written back is
      tanh (0 + Σ_{s < 8} Σ_{r' < 1024} X[1024 i + p, 1024 s + r'] · W[1024 s + r', 1024 j + q] + bias[1024 j + q]),
  which is the dense layer's entry (1024 i + p, 1024 j + q) with its inner sum grouped by runs.  The blocks written
  back tile the result, so the whole result array is the dense layer.
-/
import proofs.«171216_j15504831938689_2_alg».proof.Proof.Accumulate
import proofs.«171216_j15504831938689_2_alg».proof.Proof.Blocks
import proofs.«171216_j15504831938689_2_alg».proof.Proof.OutBlocks
import proofs.«171216_j15504831938689_2_alg».proof.Proof.Spec

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value Idealize.ShloMosaic.ValueIdx

/-- Two rank-2 indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

variable (m : (ℓ : Loc nD τ sig) → Buf (Elt Ideal) ℓ) (ρ : Dev nD → PrngReg)

/-- The activations, the weight matrix the host operations build, and the bias, as the dense layer takes them. -/
abbrev acts (c : Dev nD) : S4096x8192.Idx → EReal := (m ((c : Thread nD τ).loc main_arg0))
abbrev weights (c : Dev nD) : S8192x4096.Idx → EReal :=
  Cert.ReferenceIdeal.Read.val_main_v18 (F := Ideal) (m ((c : Thread nD τ).loc main_arg1)) (m ((c : Thread nD τ).loc main_arg2))
abbrev bias (c : Dev nD) : S4096.Idx → EReal := (m ((c : Thread nD τ).loc main_arg3))

/-- The dense layer of the program's arguments. -/
abbrev result (c : Dev nD) : Buf (Elt Ideal) ((c : Thread nD τ).loc main_v22) :=
  Cert.Dense.G (acts m c) (weights m c) (bias m c)

/-- At the last step of a run the output block is the finishing arithmetic applied to the completed running sum. -/
theorem out_at_last (c : Dev nD) (t : Fin cfg0.N) (h7 : t.val % 8 = 7) :
    (outsAt0 m c t.val t.isLt).1 = k0_pay3 (F := Ideal) (outsAt0 m c t.val t.isLt).2 (iblk m c 2 t) := by
  have h0 : ¬t.val % 8 = 0 := by omega
  rw [outsAt0_C m c t h0 h7]
  dsimp only
  exact (Pieces.output_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (congrArg (fun s => k0_pay3 (F := Ideal) s (iblk m c 2 t))
      (Pieces.scratch_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm)

/-- The term step 8·(t / 8) + s adds, in the program's arguments: piece s of block row t / 32 of X against piece s
    of block column t / 8 % 4 of W. -/
theorem term_entry (c : Dev nD) (t : Fin cfg0.N) (s : ℕ) (hs : s < 8) (p q : Fin 1024) :
    Acc.term m c (8 * (t.val / 8) + s) (ix2 p q)
      = ∑ r' : Fin 1024,
          acts m c (ix2 (⟨1024 * (t.val / 32) + p.val, by have := lt_of_lt_of_eq t.isLt (show cfg0.N = 128 from N_0); have := p.isLt; omega⟩ : Fin 4096)
                        (⟨1024 * s + r'.val, by have := r'.isLt; omega⟩ : Fin 8192))
          * weights m c (ix2 (⟨1024 * s + r'.val, by have := r'.isLt; omega⟩ : Fin 8192)
                             (⟨1024 * (t.val / 8 % 4) + q.val, by have := q.isLt; omega⟩ : Fin 4096)) := by
  have hN : cfg0.N = 128 := N_0
  have ht := lt_of_lt_of_eq t.isLt hN
  have hb : 8 * (t.val / 8) + s < cfg0.N := lt_of_lt_of_eq (show 8 * (t.val / 8) + s < 128 by omega) hN.symm
  rw [Acc.term_of_lt m c _ hb]
  unfold Acc.blockDot
  refine Finset.sum_congr rfl fun r' _ => ?_
  have hr := r'.isLt
  refine congrArg₂ (· * ·) ?_ ?_
  · refine (Blocks.acts_block_apply m c ⟨8 * (t.val / 8) + s, hb⟩ p r').trans ?_
    rw [Blocks.acts_eq m c]
    refine congrArg _ (ix2_congr ?_ ?_)
    · show 1024 * ((8 * (t.val / 8) + s) / 32) + p.val = 1024 * (t.val / 32) + p.val
      omega
    · show 1024 * ((8 * (t.val / 8) + s) % 8) + r'.val = 1024 * s + r'.val
      omega
  · refine (Blocks.weights_block_apply m c ⟨8 * (t.val / 8) + s, hb⟩ r' q).trans ?_
    rw [Blocks.weights_eq m c]
    refine congrArg _ (ix2_congr ?_ ?_)
    · show 1024 * ((8 * (t.val / 8) + s) % 8) + r'.val = 1024 * s + r'.val
      omega
    · show 1024 * ((8 * (t.val / 8) + s) / 8 % 4) + q.val = 1024 * (t.val / 8 % 4) + q.val
      omega

/-- WHAT A LAST STEP WRITES BACK is its block of the dense layer of the arguments. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  rw [flushed3 m c t, out_at_last m c t h7]
  refine funext fun (j : S1024x1024.Idx) => ?_
  obtain ⟨p, q, rfl⟩ : ∃ (p q : Fin 1024), j = ix2 p q := ⟨j 0, j 1, eq_ix2 j⟩
  show k0_pay3 (F := Ideal) (outsAt0 m c t.val t.isLt).2 (iblk m c 2 t) (ix2 p q)
      = result m c (((cfg0.win 3).blk t).view.emb (ix2 p q : S1024x1024.Idx))
  rw [OutBlocks.emb_apply t p q]
  show _ = Cert.Dense.G (acts m c) (weights m c) (bias m c) (ix2 _ _)
  rw [Cert.Dense.G_apply_runs]
  refine (Body.finish_apply (outsAt0 m c t.val t.isLt).2 (iblk m c 2 t) p q).trans ?_
  have e8 : t.val % 8 + 1 = 8 := by omega
  rw [Acc.running_sum_apply m c t (ix2 p q), e8, Blocks.bias_block_apply m c t 0 q, Blocks.bias_row_apply m c]
  refine congrArg Ideal.tanh (congrArg₂ (· + ·) (congrArg (0 + ·) (Finset.sum_congr rfl fun s hs => ?_)) rfl)
  have hs8 : s < 8 := Finset.mem_range.mp hs
  rw [term_entry m c t s hs8 p q]
  refine Finset.sum_congr rfl fun r' _ => ?_
  rw [dif_pos hs8]

/-- THE RESULT ARRAY after the run is the dense layer of the arguments: the blocks written back tile it. -/
theorem final (c : Dev nD) : (dats m 0 c).arrAt 3 cfg0.N = result m c :=
  (dats m 0 c).arrAt_eq_of_cover 3 (result m c) (flushed_eq m c) OutBlocks.cover

/-- The kernel program's run: the result array ends at the dense layer of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.lean ====
/-
  A dense layer with a hyperbolic-tangent activation, computed two ways.

  Both programs first build a weight matrix W [8192, 4096] by adding 400000 given values into a zero matrix at
  given (row, column) pairs (negative indices wrapped once), by the very same host operations.  The reference then
  forms tanh (X · W + bias) with ONE matrix product over the 8192 shared coordinates.  The kernel narrows X and W to a
  shorter float format (the identity on extended reals) and runs a 4 x 4 x 8 grid: for each 1024 x 1024 block (i, j)
  of the result it adds up, from zero, the eight products of the 1024 x 1024 blocks (i, k) of X and (k, j) of W,
  k = 0 … 7, in a running sum kept between steps, and at k = 7 writes out tanh (sum + bias).

  On the extended reals the two are the same function, entry by entry: the kernel's inner sum is the reference's
  sum of 8192 products grouped into 8 consecutive runs of 1024 and added run by run from zero, and addition of
  extended reals is commutative and associative (nothing is cancelled or distributed, so no finiteness is used).
  The idealization rewrote no operation of the kernel, so that conjunct is trivial; each program's frame is its
  generated run.
-/
import proofs.«171216_j15504831938689_2_alg».proof.Defs
import proofs.«171216_j15504831938689_2_alg».proof.Proof.Gen.Kernel
import proofs.«171216_j15504831938689_2_alg».proof.Proof.Gen.Kernel.Skeleton
import proofs.«171216_j15504831938689_2_alg».proof.Proof.Gen.Kernel.Launch
import proofs.«171216_j15504831938689_2_alg».proof.Proof.Gen.Kernel.Points
import proofs.«171216_j15504831938689_2_alg».proof.Proof.Gen.Kernel.Frame
import proofs.«171216_j15504831938689_2_alg».proof.Proof.Gen.KernelIdeal
import proofs.«171216_j15504831938689_2_alg».proof.Proof.Gen.KernelIdeal.Skeleton
import proofs.«171216_j15504831938689_2_alg».proof.Proof.Gen.KernelIdeal.Launch
import proofs.«171216_j15504831938689_2_alg».proof.Proof.Gen.KernelIdeal.Points
import proofs.«171216_j15504831938689_2_alg».proof.Proof.Gen.KernelIdeal.Frame
import proofs.«171216_j15504831938689_2_alg».proof.Proof.Gen.ReferenceIdeal
import proofs.«171216_j15504831938689_2_alg».proof.Proof.Gen.Pre_finite_inputs
import proofs.«171216_j15504831938689_2_alg».proof.Proof.Gen.KernelIdeal.Value
import proofs.«171216_j15504831938689_2_alg».proof.Proof.Gen.ReferenceIdeal.Run
import proofs.«171216_j15504831938689_2_alg».proof.Proof.Gen.ReferenceIdeal.Read
import proofs.«171216_j15504831938689_2_alg».proof.Proof.RefValue
import proofs.«171216_j15504831938689_2_alg».proof.Proof.Result
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the dense layer of the (agreeing) arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.result m c
  rw [Cert.ReferenceIdeal.Read.val_main_v23_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
